-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x16 : Shape := ⟨2, ![600000, 16]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S600000x16 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S600000x16 : Shape := ⟨2, ![600000, 16]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 75
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x16, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S100000, .f32⟩
  | .hbm, ⟨20, _⟩ => ⟨S600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S_, .f32⟩
  | .hbm, ⟨70, _⟩ => ⟨S100000x128, .f32⟩
  | .hbm, ⟨71, _⟩ => ⟨S600000x1, .i32⟩
  | .hbm, ⟨72, _⟩ => ⟨S100000x128, .f32⟩
  | .hbm, ⟨73, _⟩ => ⟨S1x128, .f32⟩
  | .hbm, ⟨74, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x16 : Shape := ⟨2, ![600000, 16]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x16, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S100000x128, .f32⟩
  | .hbm, ⟨62, _⟩ => ⟨S600000x1, .i32⟩
  | .hbm, ⟨63, _⟩ => ⟨S100000x128, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S100000, .f32⟩
  | .hbm, ⟨68, _⟩ => ⟨S600000x1, .i32⟩
  | .hbm, ⟨69, _⟩ => ⟨S100000, .f32⟩
  | .hbm, ⟨70, _⟩ => ⟨S_, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x128, .f32⟩
  | .hbm, ⟨95, _⟩ => ⟨S_, .f32⟩
  | .hbm, ⟨96, _⟩ => ⟨S100000x128, .f32⟩
  | .hbm, ⟨97, _⟩ => ⟨S600000x1, .i32⟩
  | .hbm, ⟨98, _⟩ => ⟨S100000x128, .f32⟩
  | .hbm, ⟨99, _⟩ => ⟨S_, .f32⟩
  | .hbm, ⟨100, _⟩ => ⟨S600000, .f32⟩
  | .hbm, ⟨101, _⟩ => ⟨S_, .f32⟩
  | .hbm, ⟨102, _⟩ => ⟨S100000, .f32⟩
  | .hbm, ⟨103, _⟩ => ⟨S600000x1, .i32⟩
  | .hbm, ⟨104, _⟩ => ⟨S100000, .f32⟩
  | .hbm, ⟨105, _⟩ => ⟨S_, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S100000x128, .f32⟩
  | .hbm, ⟨117, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_call2_v0 : Ref sig .tc := ⟨.hbm, 71, rfl⟩
abbrev main_call2_v1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_cst : Ref sig .tc := ⟨.hbm, 83, rfl⟩
abbrev main_call3_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_call4_v0 : Ref sig .tc := ⟨.hbm, 106, rfl⟩
abbrev main_call4_v1 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibSageLayer.lean ====
/-
  One layer of a mean-aggregation graph network on arrays of extended reals, and the law that joins its two spellings.

  A layer takes, for every node r, the row M(r, ·) of aggregated neighbour features already divided by the node's
  in-degree ("the mean"), and the node's own row h(r, ·).  Entry (r, c) of its result is

      (sum over l of M(r, l) * Wl(l, c))  +  b(c)  +  (sum over l of h(r, l) * Wr(l, c)),

  followed, in every layer but the last, by the maximum with zero.  The bias is added to the first product before
  the second product is added: that is the grouping both programs use, so no re-association is needed.

  The two programs differ only in how they form the mean from the aggregated sum A and the clamped degree d:
  one multiplies the row by the reciprocal 1 / d computed once, the other divides every entry by d.  On the
  extended reals  x * (1 / d) = x / d  holds for every x as soon as d is not zero (both sides are x times the
  inverse of d; at d = 0 they would differ, 0 * (1 / 0) = 0 against 0 / 0 = bottom).  The clamped degree is the
  maximum of 1 and a count, hence at least 1 and never zero, whatever the count is: the law needs no finiteness.

  The layer is ROW-WISE: row r of the result depends on row r of M, row r of h and the parameters only.  So a band
  of rows computed from the band of M and the band of h is the band of the whole result ("layer_row").
-/
import Idealize.ShloMosaic.Lib.ValueIdx
import Idealize.ShloMosaic.PureOps.Ideal.Laws
import proofs.«159616_j65171833749590_2_alg».proof.Proof.LibRowWise
import proofs.«159616_j65171833749590_2_alg».proof.Proof.LibMatProd

noncomputable section

open scoped BigOperators

namespace Sage

open Idealize.ShloMosaic Idealize.ShloMosaic.ValueIdx GcnSpec

/-- What follows the two products and the bias: the maximum with zero, or nothing (the last layer). -/
def post (relu : Bool) (z : EReal) : EReal := if relu then max z zeroF else z

theorem post_true (z : EReal) : post true z = max z zeroF := rfl
theorem post_false (z : EReal) : post false z = z := rfl

/-- One layer, from the mean M and the nodes' own features h. -/
def layer (relu : Bool) {n k q : ℕ} (M h : Arr n k) (Wl : Arr k q) (b : Arr 1 q) (Wr : Arr k q) : Arr n q :=
  fun i => post relu
    ((lin M Wl i + b (ix2 (0 : Fin 1) (⟨(i 1).val, idx2_lt1 i⟩ : Fin q))) + lin h Wr i)

/-- The layer read at a pair of coordinates: the two products as plain sums. -/
theorem layer_ix2 (relu : Bool) {n k q : ℕ} (M h : Arr n k) (Wl : Arr k q) (b : Arr 1 q) (Wr : Arr k q)
    (r : Fin n) (c : Fin q) :
    layer relu M h Wl b Wr (ix2 r c)
      = post relu (((∑ l : Fin k, M (ix2 r l) * Wl (ix2 l c)) + b (ix2 (0 : Fin 1) c))
          + ∑ l : Fin k, h (ix2 r l) * Wr (ix2 l c)) := rfl

/-- To show an array is the layer it is enough to read it at every pair of coordinates. -/
theorem eq_layer (relu : Bool) {n k q : ℕ} (M h : Arr n k) (Wl : Arr k q) (b : Arr 1 q) (Wr : Arr k q) (y : Arr n q)
    (hy : ∀ (r : Fin n) (c : Fin q), y (ix2 r c)
      = post relu (((∑ l : Fin k, M (ix2 r l) * Wl (ix2 l c)) + b (ix2 (0 : Fin 1) c))
          + ∑ l : Fin k, h (ix2 r l) * Wr (ix2 l c))) :
    y = layer relu M h Wl b Wr := by
  funext i
  obtain ⟨r, c, rfl⟩ : ∃ (r : Fin n) (c : Fin q), i = ix2 r c := ⟨i 0, i 1, eq_ix2 i⟩
  rw [hy, layer_ix2]

/-- Row-wise: a row of the result is fixed by the same row of the mean and of the own features, and column c of the
    result by column c of the parameters.  Row r of a band and row r' of the whole array give the same entry when the
    two rows of M agree, the two rows of h agree, and the parameters agree in column c. -/
theorem layer_row (relu : Bool) {n n' k q : ℕ} (M h : Arr n k) (M' h' : Arr n' k) (Wl Wl' : Arr k q) (b b' : Arr 1 q)
    (Wr Wr' : Arr k q) (r : Fin n) (r' : Fin n') (c : Fin q)
    (hM : ∀ l : Fin k, M (ix2 r l) = M' (ix2 r' l)) (hh : ∀ l : Fin k, h (ix2 r l) = h' (ix2 r' l))
    (hWl : ∀ l : Fin k, Wl (ix2 l c) = Wl' (ix2 l c)) (hb : b (ix2 (0 : Fin 1) c) = b' (ix2 (0 : Fin 1) c))
    (hWr : ∀ l : Fin k, Wr (ix2 l c) = Wr' (ix2 l c)) :
    layer relu M h Wl b Wr (ix2 r c) = layer relu M' h' Wl' b' Wr' (ix2 r' c) := by
  rw [layer_ix2, layer_ix2]
  have e1 : (∑ l : Fin k, M (ix2 r l) * Wl (ix2 l c)) = ∑ l : Fin k, M' (ix2 r' l) * Wl' (ix2 l c) :=
    Finset.sum_congr rfl fun l _ => by rw [hM l, hWl l]
  have e2 : (∑ l : Fin k, h (ix2 r l) * Wr (ix2 l c)) = ∑ l : Fin k, h' (ix2 r' l) * Wr' (ix2 l c) :=
    Finset.sum_congr rfl fun l _ => by rw [hh l, hWr l]
  rw [e1, e2, hb]

/-! ## The mean, two ways -/

/-- Every row of A times that row's entry of the one-column array s. -/
def scaleRows {n k : ℕ} (A : Arr n k) (s : Arr n 1) : Arr n k :=
  fun i => A i * s (ix2 (⟨(i 0).val, idx2_lt0 i⟩ : Fin n) (0 : Fin 1))

theorem scaleRows_ix2 {n k : ℕ} (A : Arr n k) (s : Arr n 1) (r : Fin n) (l : Fin k) :
    scaleRows A s (ix2 r l) = A (ix2 r l) * s (ix2 r (0 : Fin 1)) := rfl

/-- Every entry of A divided by its row's entry of the vector d. -/
def divRows {n k : ℕ} (A : Arr n k) (d : (⟨1, ![n]⟩ : Shape).Idx → EReal) : Arr n k :=
  fun i => Ideal.div (A i) (d (ix1 (⟨(i 0).val, idx2_lt0 i⟩ : Fin n)))

theorem divRows_ix2 {n k : ℕ} (A : Arr n k) (d : (⟨1, ![n]⟩ : Shape).Idx → EReal) (r : Fin n) (l : Fin k) :
    divRows A d (ix2 r l) = Ideal.div (A (ix2 r l)) (d (ix1 r)) := rfl

/-- Multiplying by the reciprocal is dividing, off zero: both are the product with the inverse. -/
theorem mul_div_one (x : EReal) {y : EReal} (hy : y ≠ 0) : x * Ideal.div 1 y = Ideal.div x y := by
  unfold Ideal.div
  rw [if_neg hy, if_neg hy, one_mul]

/-- The float one, kept as the word the programs spell it with, is the number one. -/
def oneF : EReal := Ideal.ofBits .f32 0x3F800000#32

theorem oneF_eq : oneF = 1 := by
  unfold oneF
  simp [Ideal.ofBits, Ideal.ieee, -EReal.coe_mul]; norm_num

/-- A count clamped below at one is not zero, whatever the count. -/
theorem clamp_ne_zero (g : EReal) : max oneF g ≠ 0 := by
  have h1 : (0 : EReal) < oneF := by rw [oneF_eq]; exact zero_lt_one
  exact ne_of_gt (lt_of_lt_of_le h1 (le_max_left _ _))

/-- Scaling the rows by the reciprocals of a vector with no zero entry is dividing the rows by the vector. -/
theorem scaleRows_eq_divRows {n k : ℕ} (A : Arr n k) (s : Arr n 1) (d : (⟨1, ![n]⟩ : Shape).Idx → EReal)
    (hs : ∀ r : Fin n, s (ix2 r (0 : Fin 1)) = Ideal.div oneF (d (ix1 r))) (hd : ∀ r : Fin n, d (ix1 r) ≠ 0) :
    scaleRows A s = divRows A d := by
  funext i
  obtain ⟨r, l, rfl⟩ : ∃ (r : Fin n) (l : Fin k), i = ix2 r l := ⟨i 0, i 1, eq_ix2 i⟩
  rw [scaleRows_ix2, divRows_ix2, hs r, oneF_eq]
  exact mul_div_one _ (hd r)

end Sage

end
-- ==== Proof.LibSageMean.lean ====
/-
  The mean of the aggregated neighbour features, as each program forms it, is one array.

  The clamped degree is the maximum of a broadcast one and the degree vector; its reciprocal is a broadcast one
  divided by it, reshaped to one column.  Read at a row, the reciprocal column is one over the clamped degree's entry,
  and the clamped degree's entry is the maximum of one and a number, hence not zero.  So scaling the rows of the
  aggregate by the reciprocal column is dividing them by the clamped degree (x * (1 / d) = x / d off zero).
-/
import Idealize.ShloMosaic.Lib.Pipeline.Value
import Idealize.ShloMosaic.Lib.ValueIdx
import Idealize.ShloMosaic.Lib.ValueLayout
import Idealize.ShloMosaic.PureOps.Ideal.Laws
import proofs.«159616_j65171833749590_2_alg».proof.Proof.LibRowCol
import proofs.«159616_j65171833749590_2_alg».proof.Proof.LibSageLayer

noncomputable section

namespace Sage.Mean

open Idealize.ShloMosaic Idealize.ShloMosaic.ValueIdx GcnSpec Sage

variable {n k : ℕ}

/-- A rank-0 constant broadcast to a vector reads the constant everywhere. -/
theorem splat_apply (w : BitVec 32) (h0 : (⟨0, ![]⟩ : Shape).BroadcastsInDim (⟨1, ![n]⟩ : Shape) (![] : Fin 0 → Fin 1))
    (r : Fin n) :
    broadcastInDim (⟨1, ![n]⟩ : Shape) (![] : Fin 0 → Fin 1) h0 (constant (F := Ideal) (⟨0, ![]⟩ : Shape) .f32 w) (ix1 r)
      = Ideal.ofBits .f32 w := by
  rw [broadcastInDim_apply _ h0 _ (ix1 r) ix0 (fun a => a.elim0), constant_apply]

/-- The clamped degree at a node: the maximum of one and the degree. -/
theorem clamp_apply (g : FVec Ideal (⟨1, ![n]⟩ : Shape) .f32)
    (h0 : (⟨0, ![]⟩ : Shape).BroadcastsInDim (⟨1, ![n]⟩ : Shape) (![] : Fin 0 → Fin 1)) (r : Fin n) :
    maximumf (broadcastInDim (⟨1, ![n]⟩ : Shape) (![] : Fin 0 → Fin 1) h0
        (id (constant (F := Ideal) (⟨0, ![]⟩ : Shape) .f32 0x3F800000#32))) g (ix1 r)
      = max oneF (g (ix1 r)) := by
  rw [maximumf_apply]
  exact congrArg (fun z => max z (g (ix1 r))) (splat_apply 0x3F800000#32 h0 r)

/-- The reciprocal column at a node: one over the vector's entry. -/
theorem recip_apply (d : FVec Ideal (⟨1, ![n]⟩ : Shape) .f32)
    (h0 : (⟨0, ![]⟩ : Shape).BroadcastsInDim (⟨1, ![n]⟩ : Shape) (![] : Fin 0 → Fin 1))
    (hsc : (⟨1, ![n]⟩ : Shape).ShapeCasts ⟨2, ![n, 1]⟩) (r : Fin n) :
    shapeCast ⟨2, ![n, 1]⟩ (Host.divf (broadcastInDim (⟨1, ![n]⟩ : Shape) (![] : Fin 0 → Fin 1) h0
        (constant (F := Ideal) (⟨0, ![]⟩ : Shape) .f32 0x3F800000#32)) d) hsc (ix2 r (0 : Fin 1))
      = Ideal.div oneF (d (ix1 r)) := by
  rw [RowCol.shapeCast_a_a1_apply]
  show Ideal.div (broadcastInDim (⟨1, ![n]⟩ : Shape) (![] : Fin 0 → Fin 1) h0
        (constant (F := Ideal) (⟨0, ![]⟩ : Shape) .f32 0x3F800000#32) (ix1 r)) (d (ix1 r)) = _
  rw [splat_apply]
  rfl

/-- The rows scaled by one over the clamped degree are the rows divided by the clamped degree. -/
theorem mean_eq (A : FVec Ideal (⟨2, ![n, k]⟩ : Shape) .f32) (g : FVec Ideal (⟨1, ![n]⟩ : Shape) .f32)
    (h0 : (⟨0, ![]⟩ : Shape).BroadcastsInDim (⟨1, ![n]⟩ : Shape) (![] : Fin 0 → Fin 1))
    (hsc : (⟨1, ![n]⟩ : Shape).ShapeCasts ⟨2, ![n, 1]⟩) :
    scaleRows A (shapeCast ⟨2, ![n, 1]⟩ (Host.divf (broadcastInDim (⟨1, ![n]⟩ : Shape) (![] : Fin 0 → Fin 1) h0
          (constant (F := Ideal) (⟨0, ![]⟩ : Shape) .f32 0x3F800000#32))
        (maximumf (broadcastInDim (⟨1, ![n]⟩ : Shape) (![] : Fin 0 → Fin 1) h0
          (id (constant (F := Ideal) (⟨0, ![]⟩ : Shape) .f32 0x3F800000#32))) g)) hsc)
      = divRows A (maximumf (broadcastInDim (⟨1, ![n]⟩ : Shape) (![] : Fin 0 → Fin 1) h0
          (id (constant (F := Ideal) (⟨0, ![]⟩ : Shape) .f32 0x3F800000#32))) g) :=
  scaleRows_eq_divRows A _ _ (fun r => recip_apply _ h0 hsc r)
    (fun r => by rw [clamp_apply]; exact clamp_ne_zero _)

end Sage.Mean

end
-- ==== Proof.KernelRun.lean ====
/-
  The kernel program's run with every buffer named.

  The program is a line of host operations, a kernel region, more host operations, a second region, more host
  operations and a third region.  Its run ends with every buffer of the TensorCore that is not a staging buffer
  at the value the last boundary's contents give it (the fold of contents through the segments, W8): the regions'
  launch theorem over the segments, read at the final state.  From that one statement follow both what a result
  buffer holds and that the arguments end as launched.
-/
import proofs.«159616_j65171833749590_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with every unstaged buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result buffer named and the arguments as launched. -/
theorem run_result : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v47 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c)⟩)
    (run_all m ρ)

end Cert.KernelIdeal.Run

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«159616_j65171833749590_2_alg».proof.Proof.LibRowWise
import proofs.«159616_j65171833749590_2_alg».proof.Proof.LibMatProd
import proofs.«159616_j65171833749590_2_alg».proof.Proof.LibRowCol
import proofs.«159616_j65171833749590_2_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.LibSageSpellings.lean ====
/-
  The two programs' operation chains for one layer ARE the layer of Sage.

  A kernel body computes a band of n rows: it scales the band of the aggregated sum by the band of the reciprocal
  degree (a one-column block broadcast along the row), multiplies by the first weight matrix on the matrix unit (onto
  a zero accumulator), adds the bias (a one-row block broadcast over the rows), adds the matrix unit's product of the
  band of the nodes' own features with the second weight matrix, and, except in the last layer, takes the maximum
  with zero.  The roundings to a narrower format in front of the matrix unit are the identity on the extended reals.

  The host divides the aggregated sum by the clamped degree (a vector put beside the rows by two broadcasts), takes the
  two products as dot_generals, broadcasts the bias vector in two steps, and takes the maximum against a broadcast
  rank-0 zero.

  Each lemma takes its chain over arrays with any number n of rows and reads it at a pair of coordinates: a matrix
  unit's product onto zero and a dot_general with one contracted axis are both the plain sum over the contracted
  coordinate.
-/
import Idealize.ShloMosaic.Lib.Pipeline.Value
import Idealize.ShloMosaic.Lib.ValueIdx
import Idealize.ShloMosaic.Lib.ValueLayout
import Idealize.ShloMosaic.PureOps.Ideal.Laws
import proofs.«159616_j65171833749590_2_alg».proof.Proof.LibRowOps
import proofs.«159616_j65171833749590_2_alg».proof.Proof.LibSageLayer

noncomputable section

open scoped BigOperators

namespace Sage.Spell

open Idealize.ShloMosaic Idealize.ShloMosaic.ValueIdx GcnSpec Sage

variable {n k q : ℕ}

/-! ## A kernel body -/

/-- The value in front of the last maximum, as a body spells it. -/
theorem body_core
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (x0 x1 : FVec Ideal (⟨2, ![n, k]⟩ : Shape) .f32) (x2 : FVec Ideal (⟨2, ![n, 1]⟩ : Shape) .f32)
    (x3 x5 : FVec Ideal (⟨2, ![k, q]⟩ : Shape) .f32) (x4 : FVec Ideal (⟨2, ![1, q]⟩ : Shape) .f32)
    (b2 : (⟨2, ![n, 1]⟩ : Shape).Broadcasts ⟨2, ![n, k]⟩) (b4 : (⟨2, ![1, q]⟩ : Shape).Broadcasts ⟨2, ![n, q]⟩)
    (t : FTy.bf16.bits < FTy.f32.bits) :
    addf (addf (FloatOps.matmul d none (truncf .bf16 (mulf x0 (broadcastTo ⟨2, ![n, k]⟩ x2 b2)) t) (truncf .bf16 x3 t)
          (constant (F := Ideal) (⟨2, ![n, q]⟩ : Shape) .f32 0x00000000#32))
        (broadcastTo ⟨2, ![n, q]⟩ x4 b4))
      (FloatOps.matmul d none (truncf .bf16 x1 t) (truncf .bf16 x5 t)
        (constant (F := Ideal) (⟨2, ![n, q]⟩ : Shape) .f32 0x00000000#32))
      = layer false (scaleRows x0 x2) x1 x3 x4 x5 := by
  refine eq_layer false _ _ _ _ _ _ fun r c => ?_
  rw [addf_apply, addf_apply, MatProd.matmul_zero_entry d none hr hs hl0 hl1 hr0 hr1,
    MatProd.matmul_zero_entry d none hr hs hl0 hl1 hr0 hr1, broadcastTo_1b_ab_apply, post_false]
  unfold MatProd.entry
  refine congrArg₂ (· + ·) (congrArg (· + x4 (ix2 (0 : Fin 1) c)) (Finset.sum_congr rfl fun l _ => ?_)) rfl
  show (x0 (ix2 r l) * broadcastTo ⟨2, ![n, k]⟩ x2 b2 (ix2 r l)) * x3 (ix2 l c) = scaleRows x0 x2 (ix2 r l) * x3 (ix2 l c)
  rw [RowCol.broadcastTo_a1_ab_apply, scaleRows_ix2]

/-- A layer followed by the maximum with zero is the layer with the maximum. -/
theorem max_layer (M h : Arr n k) (Wl : Arr k q) (b : Arr 1 q) (Wr : Arr k q) (z : Arr n q)
    (hz : ∀ i, z i = zeroF) :
    (fun i => max (layer false M h Wl b Wr i) (z i)) = layer true M h Wl b Wr := by
  funext i
  rw [hz]
  rfl

/-- The whole body of a layer that ends in the maximum with zero (a scalar zero splat over the block). -/
theorem body_relu
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (x0 x1 : FVec Ideal (⟨2, ![n, k]⟩ : Shape) .f32) (x2 : FVec Ideal (⟨2, ![n, 1]⟩ : Shape) .f32)
    (x3 x5 : FVec Ideal (⟨2, ![k, q]⟩ : Shape) .f32) (x4 : FVec Ideal (⟨2, ![1, q]⟩ : Shape) .f32)
    (b2 : (⟨2, ![n, 1]⟩ : Shape).Broadcasts ⟨2, ![n, k]⟩) (b4 : (⟨2, ![1, q]⟩ : Shape).Broadcasts ⟨2, ![n, q]⟩)
    (t : FTy.bf16.bits < FTy.f32.bits) :
    maximumf
      (addf (addf (FloatOps.matmul d none (truncf .bf16 (mulf x0 (broadcastTo ⟨2, ![n, k]⟩ x2 b2)) t) (truncf .bf16 x3 t)
            (constant (F := Ideal) (⟨2, ![n, q]⟩ : Shape) .f32 0x00000000#32))
          (broadcastTo ⟨2, ![n, q]⟩ x4 b4))
        (FloatOps.matmul d none (truncf .bf16 x1 t) (truncf .bf16 x5 t)
          (constant (F := Ideal) (⟨2, ![n, q]⟩ : Shape) .f32 0x00000000#32)))
      (broadcast ⟨2, ![n, q]⟩ (Scalar.ofBits (F := Ideal) .f32 0x00000000#32))
      = layer true (scaleRows x0 x2) x1 x3 x4 x5 := by
  rw [body_core d hr hs hl0 hl1 hr0 hr1 x0 x1 x2 x3 x5 x4 b2 b4 t]
  exact max_layer _ _ _ _ _ _ fun _ => rfl

/-! ## The host -/

/-- The aggregated sum divided by a vector put beside the rows by two broadcasts is the rows divided by the vector. -/
theorem divf_col_eq_divRows (A : FVec Ideal (⟨2, ![n, k]⟩ : Shape) .f32) (d1 : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    Host.divf A (broadcastInDim (⟨2, ![n, k]⟩ : Shape) (![0, 1] : Fin 2 → Fin 2) hrow
        (broadcastInDim (⟨2, ![n, 1]⟩ : Shape) (![0] : Fin 1 → Fin 2) hcol d1))
      = divRows A d1 := by
  funext i
  obtain ⟨r, l, rfl⟩ : ∃ (r : Fin n) (l : Fin k), i = ix2 r l := ⟨i 0, i 1, eq_ix2 i⟩
  show Ideal.div (A (ix2 r l)) (broadcastInDim (⟨2, ![n, k]⟩ : Shape) (![0, 1] : Fin 2 → Fin 2) hrow
        (broadcastInDim (⟨2, ![n, 1]⟩ : Shape) (![0] : Fin 1 → Fin 2) hcol d1) (ix2 r l)) = _
  rw [GcnOps.col_host_apply, divRows_ix2]

/-- The value in front of the last maximum, as the host spells it, from the mean already formed. -/
theorem host_core
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (M h : FVec Ideal (⟨2, ![n, k]⟩ : Shape) .f32) (Wl Wr : FVec Ideal (⟨2, ![k, q]⟩ : Shape) .f32)
    (bv : FVec Ideal (⟨1, ![q]⟩ : Shape) .f32)
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (hsc : (⟨1, ![q]⟩ : Shape).ShapeCasts ⟨2, ![1, q]⟩) :
    addf (addf (Host.dotGeneral d none M Wl)
        (broadcastInDim (⟨2, ![n, q]⟩ : Shape) (![0, 1] : Fin 2 → Fin 2) h2
          (broadcastInDim (⟨2, ![1, q]⟩ : Shape) (![1] : Fin 1 → Fin 2) h1 bv)))
      (Host.dotGeneral d none h Wr)
      = layer false M h Wl (shapeCast ⟨2, ![1, q]⟩ bv hsc) Wr := by
  simp only [Host.dotGeneral]
  rw [GcnOps.dotGeneral_eq_lin d none _ hr hs hl0 hl1 hr0 hr1, GcnOps.dotGeneral_eq_lin d none _ hr hs hl0 hl1 hr0 hr1]
  refine eq_layer false _ _ _ _ _ _ fun r c => ?_
  rw [addf_apply, addf_apply, GcnOps.bias_host_apply bv h1 h2 hsc r c, post_false]
  rfl

/-- A host layer that ends in the maximum against a broadcast rank-0 zero. -/
theorem host_relu
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (M h : FVec Ideal (⟨2, ![n, k]⟩ : Shape) .f32) (Wl Wr : FVec Ideal (⟨2, ![k, q]⟩ : Shape) .f32)
    (bv : FVec Ideal (⟨1, ![q]⟩ : Shape) .f32)
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (h0 : (⟨0, ![]⟩ : Shape).BroadcastsInDim (⟨2, ![n, q]⟩ : Shape) (![] : Fin 0 → Fin 2))
    (hsc : (⟨1, ![q]⟩ : Shape).ShapeCasts ⟨2, ![1, q]⟩) :
    maximumf
      (addf (addf (Host.dotGeneral d none M Wl)
          (broadcastInDim (⟨2, ![n, q]⟩ : Shape) (![0, 1] : Fin 2 → Fin 2) h2
            (broadcastInDim (⟨2, ![1, q]⟩ : Shape) (![1] : Fin 1 → Fin 2) h1 bv)))
        (Host.dotGeneral d none h Wr))
      (broadcastInDim (⟨2, ![n, q]⟩ : Shape) (![] : Fin 0 → Fin 2) h0
        (constant (F := Ideal) (⟨0, ![]⟩ : Shape) .f32 0x00000000#32))
      = layer true M h Wl (shapeCast ⟨2, ![1, q]⟩ bv hsc) Wr := by
  rw [host_core d hr hs hl0 hl1 hr0 hr1 M h Wl Wr bv h1 h2 hsc]
  refine max_layer _ _ _ _ _ _ fun i => ?_
  rw [broadcastInDim_apply _ h0 _ i ix0 (fun a => a.elim0), constant_apply]
  rfl

end Sage.Spell

end
-- ==== Proof.Region0.lean ====
/-
  The first kernel region writes one layer of the network into its output array.

  The region runs the body at 20 grid points.  At point t the body loads rows 5000 t … 5000 t + 4999 of the aggregated
  sum, of the nodes' own features and of the reciprocal degree (one column), and the two whole weight matrices and the
  one-row bias, whose blocks do not move with t.  What it stores is the layer of those bands, which, the layer being
  row-wise, is the band of the layer of the whole arrays.  The 20 bands tile the 100000 rows, so after the last
  write-back the output array holds the layer of the arrays the region found, whatever those arrays are.
-/
import proofs.«159616_j65171833749590_2_alg».proof.Proof.Gen.KernelIdeal.Frame
import proofs.«159616_j65171833749590_2_alg».proof.Proof.LibSageSpellings
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer of the six arrays the region reads, as one array. -/
abbrev whole (a0 a1 : S100000x128.Idx → EReal) (a2 : S100000x1.Idx → EReal) (a3 : S128x128.Idx → EReal)
    (a4 : S1x128.Idx → EReal) (a5 : S128x128.Idx → EReal) : S100000x128.Idx → EReal :=
  Sage.layer true (Sage.scaleRows a0 a2) a1 a3 a4 a5

/-- What the body stores is the layer of the blocks it loaded. -/
theorem stored_eq (x0 : Vec Ideal S5000x128 .f32) (x2 : Vec Ideal S5000x1 .f32) (x1 : Vec Ideal S5000x128 .f32)
    (x3 : Vec Ideal S128x128 .f32) (x5 : Vec Ideal S128x128 .f32) (x4 : Vec Ideal S1x128 .f32) :
    k0_pay1 (F := Ideal) x0 x2 x1 x3 x5 x4 = Sage.layer true (Sage.scaleRows x0 x2) x1 x3 x4 x5 := by
  unfold k0_pay1
  simp only [shapeCast_self]
  exact Sage.Spell.body_relu dot_S5000x128_S128x128_S5000x128_1_0_0_1_n_n rfl rfl (fun _ _ => rfl) (fun _ _ => rfl)
    (fun _ _ => rfl) (fun _ _ => rfl) x0 x1 x2 x3 x5 x4 _ _ _

/-- The index maps over the grid: the three banded inputs move with the output, one block of rows per point, the
    parameters stay at the origin. -/
theorem maps : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every band of rows is some point's. -/
theorem band_onto : ∀ s : Fin 20, ∃ t : Fin cfg0.N, t.val = s.val :=
  (by decide +kernel : ∀ s : Fin 20, ∃ t : Fin grid0.N, t.val = s.val)

/-- What point t writes back is band t of the layer of the arrays the region found. -/
theorem flushed_eq (c : Dev nD) (t : Fin cfg0.N) :
    (dat0 V c).flushed 6 t = ((cfg0.win 6).blk t).view.read (Elt Ideal)
      (whole (V c main_v21) (V c main_arg0) (V c main_v11) (V c main_arg3) (V c main_v22) (V c main_arg5)) := by
  show (cfg0.win 6).cut (grid0.coords t) ((dat0 V c).after 6 t) = _
  rw [after0_6]
  unfold out0_6
  rw [View.canon_unit_zero origin]
  simp only [View.ld_unit_zero (S := S5000x128) origin, View.ld_unit_zero (S := S5000x1) origin,
    View.ld_unit_zero (S := S128x128) origin, View.ld_unit_zero (S := S1x128) origin]
  rw [stored_eq]
  obtain ⟨m6r, m6c, m0r, m0c, m1r, m1c, m2r, m2c, m3r, m3c, m4r, m4c, m5r, m5c⟩ := maps t
  funext j
  obtain ⟨p, q, rfl⟩ : ∃ (p : Fin 5000) (q : Fin 128), j = ix2 p q := ⟨j 0, j 1, eq_ix2 j⟩
  have hp := p.isLt
  have hq := q.isLt
  -- the index of the whole array that (p, q) of band t is
  have hrow : win0_6.index t (0 : Fin 2) * 5000 + 1 * p.val < 100000 := by
    have ht := t.isLt
    have hN : cfg0.N = 20 := N_0
    omega
  show Sage.layer true (Sage.scaleRows (iblk0 V c 0 t) (iblk0 V c 2 t)) (iblk0 V c 1 t) (iblk0 V c 3 t)
      (iblk0 V c 4 t) (iblk0 V c 5 t) (ix2 p q)
    = whole (V c main_v21) (V c main_arg0) (V c main_v11) (V c main_arg3) (V c main_v22) (V c main_arg5)
        (((cfg0.win 6).blk t).view.emb (ix2 p q))
  have hemb : ((cfg0.win 6).blk t).view.emb (ix2 p q)
      = ix2 (⟨win0_6.index t (0 : Fin 2) * 5000 + 1 * p.val, hrow⟩ : Fin 100000) q := by
    funext a; apply Fin.ext
    match a with
    | ⟨0, _⟩ => rfl
    | ⟨1, _⟩ => show win0_6.index t (1 : Fin 2) * 128 + 1 * q.val = q.val; omega
  rw [hemb]
  refine Sage.layer_row true _ _ _ _ _ _ _ _ _ _ p _ q (fun l => ?_) (fun l => ?_) (fun l => ?_) ?_ (fun l => ?_)
  · -- the band of the scaled sum
    rw [Sage.scaleRows_ix2, Sage.scaleRows_ix2]
    have hl := l.isLt
    refine congrArg₂ (· * ·) ?_ ?_
    · show V c main_v21 (((cfg0.win 0).blk t).view.emb (ix2 p l)) = V c main_v21 (ix2 _ l)
      refine congrArg _ (funext fun a => Fin.ext ?_)
      match a with
      | ⟨0, _⟩ => show win0_0.index t (0 : Fin 2) * 5000 + 1 * p.val = win0_6.index t (0 : Fin 2) * 5000 + 1 * p.val; omega
      | ⟨1, _⟩ => show win0_0.index t (1 : Fin 2) * 128 + 1 * l.val = l.val; omega
    · show V c main_v11 (((cfg0.win 2).blk t).view.emb (ix2 p (0 : Fin 1))) = V c main_v11 (ix2 _ (0 : Fin 1))
      refine congrArg _ (funext fun a => Fin.ext ?_)
      match a with
      | ⟨0, _⟩ => show win0_2.index t (0 : Fin 2) * 5000 + 1 * p.val = win0_6.index t (0 : Fin 2) * 5000 + 1 * p.val; omega
      | ⟨1, _⟩ => show win0_2.index t (1 : Fin 2) * 1 + 1 * 0 = 0; omega
  · -- the band of the own features
    have hl := l.isLt
    show V c main_arg0 (((cfg0.win 1).blk t).view.emb (ix2 p l)) = V c main_arg0 (ix2 _ l)
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 128 + 1 * l.val = l.val; omega
  · -- the first weight matrix: its one block is the whole matrix
    have hl := l.isLt
    show V c main_arg3 (((cfg0.win 3).blk t).view.emb (ix2 l q)) = V c main_arg3 (ix2 l q)
    refine congrArg _ (funext fun a => Fin.ext ?_)
    match a with
    | ⟨0, _⟩ => show win0_3.index t (0 : Fin 2) * 128 + 1 * l.val = l.val; omega
    | ⟨1, _⟩ => show win0_3.index t (1 : Fin 2) * 128 + 1 * q.val = q.val; omega
  · -- the bias row
    show V c main_v22 (((cfg0.win 4).blk t).view.emb (ix2 (0 : Fin 1) q)) = V c main_v22 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  · -- the second weight matrix
    have hl := l.isLt
    show V c main_arg5 (((cfg0.win 5).blk t).view.emb (ix2 l q)) = V c main_arg5 (ix2 l q)
    refine congrArg _ (funext fun a => Fin.ext ?_)
    match a with
    | ⟨0, _⟩ => show win0_5.index t (0 : Fin 2) * 128 + 1 * l.val = l.val; omega
    | ⟨1, _⟩ => show win0_5.index t (1 : Fin 2) * 128 + 1 * q.val = q.val; omega

/-- An index of the output array is in point t's band iff each coordinate is in the band's range on its axis. -/
theorem mem_band (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- The bands tile the output array: row r is in the band of point r / 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := band_onto ⟨(i 0).val / 5000, by omega⟩
  have ht' : t.val = (i 0).val / 5000 := ht
  obtain ⟨m6r, m6c, -⟩ := maps t
  refine ⟨t, flush0_6 t, ?_⟩
  rw [mem_band]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- After the region the output array holds the layer of the arrays the region found. -/
theorem final (c : Dev nD) :
    (dat0 V c).arrAt 6 cfg0.N
      = whole (V c main_v21) (V c main_arg0) (V c main_v11) (V c main_arg3) (V c main_v22) (V c main_arg5) :=
  (dat0 V c).arrAt_eq_of_cover 6 _ (fun t _ => flushed_eq V c t) cover

end Cert.KernelIdeal.Region0

end
-- ==== Proof.Region1.lean ====
/-
  The second kernel region writes one layer of the network into its output array.

  The region runs the body at 20 grid points.  At point t the body loads rows 5000 t … 5000 t + 4999 of the aggregated
  sum, of the nodes' own features and of the reciprocal degree (one column), and the two whole weight matrices and the
  one-row bias, whose blocks do not move with t.  What it stores is the layer of those bands, which, the layer being
  row-wise, is the band of the layer of the whole arrays.  The 20 bands tile the 100000 rows, so after the last
  write-back the output array holds the layer of the arrays the region found, whatever those arrays are.
-/
import proofs.«159616_j65171833749590_2_alg».proof.Proof.Gen.KernelIdeal.Frame
import proofs.«159616_j65171833749590_2_alg».proof.Proof.LibSageSpellings
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer of the six arrays the region reads, as one array. -/
abbrev whole (a0 a1 : S100000x128.Idx → EReal) (a2 : S100000x1.Idx → EReal) (a3 : S128x128.Idx → EReal)
    (a4 : S1x128.Idx → EReal) (a5 : S128x128.Idx → EReal) : S100000x128.Idx → EReal :=
  Sage.layer true (Sage.scaleRows a0 a2) a1 a3 a4 a5

/-- What the body stores is the layer of the blocks it loaded. -/
theorem stored_eq (x0 : Vec Ideal S5000x128 .f32) (x2 : Vec Ideal S5000x1 .f32) (x1 : Vec Ideal S5000x128 .f32)
    (x3 : Vec Ideal S128x128 .f32) (x5 : Vec Ideal S128x128 .f32) (x4 : Vec Ideal S1x128 .f32) :
    k1_pay1 (F := Ideal) x0 x2 x1 x3 x5 x4 = Sage.layer true (Sage.scaleRows x0 x2) x1 x3 x4 x5 := by
  unfold k1_pay1
  simp only [shapeCast_self]
  exact Sage.Spell.body_relu dot_S5000x128_S128x128_S5000x128_1_0_0_1_n_n rfl rfl (fun _ _ => rfl) (fun _ _ => rfl)
    (fun _ _ => rfl) (fun _ _ => rfl) x0 x1 x2 x3 x5 x4 _ _ _

/-- The index maps over the grid: the three banded inputs move with the output, one block of rows per point, the
    parameters stay at the origin. -/
theorem maps : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every band of rows is some point's. -/
theorem band_onto : ∀ s : Fin 20, ∃ t : Fin cfg1.N, t.val = s.val :=
  (by decide +kernel : ∀ s : Fin 20, ∃ t : Fin grid1.N, t.val = s.val)

/-- What point t writes back is band t of the layer of the arrays the region found. -/
theorem flushed_eq (c : Dev nD) (t : Fin cfg1.N) :
    (dat1 V c).flushed 6 t = ((cfg1.win 6).blk t).view.read (Elt Ideal)
      (whole (V c main_v33) (V c main_v23) (V c main_v11) (V c main_arg6) (V c main_v34) (V c main_arg8)) := by
  show (cfg1.win 6).cut (grid1.coords t) ((dat1 V c).after 6 t) = _
  rw [after1_6]
  unfold out1_6
  rw [View.canon_unit_zero origin]
  simp only [View.ld_unit_zero (S := S5000x128) origin, View.ld_unit_zero (S := S5000x1) origin,
    View.ld_unit_zero (S := S128x128) origin, View.ld_unit_zero (S := S1x128) origin]
  rw [stored_eq]
  obtain ⟨m6r, m6c, m0r, m0c, m1r, m1c, m2r, m2c, m3r, m3c, m4r, m4c, m5r, m5c⟩ := maps t
  funext j
  obtain ⟨p, q, rfl⟩ : ∃ (p : Fin 5000) (q : Fin 128), j = ix2 p q := ⟨j 0, j 1, eq_ix2 j⟩
  have hp := p.isLt
  have hq := q.isLt
  -- the index of the whole array that (p, q) of band t is
  have hrow : win1_6.index t (0 : Fin 2) * 5000 + 1 * p.val < 100000 := by
    have ht := t.isLt
    have hN : cfg1.N = 20 := N_1
    omega
  show Sage.layer true (Sage.scaleRows (iblk1 V c 0 t) (iblk1 V c 2 t)) (iblk1 V c 1 t) (iblk1 V c 3 t)
      (iblk1 V c 4 t) (iblk1 V c 5 t) (ix2 p q)
    = whole (V c main_v33) (V c main_v23) (V c main_v11) (V c main_arg6) (V c main_v34) (V c main_arg8)
        (((cfg1.win 6).blk t).view.emb (ix2 p q))
  have hemb : ((cfg1.win 6).blk t).view.emb (ix2 p q)
      = ix2 (⟨win1_6.index t (0 : Fin 2) * 5000 + 1 * p.val, hrow⟩ : Fin 100000) q := by
    funext a; apply Fin.ext
    match a with
    | ⟨0, _⟩ => rfl
    | ⟨1, _⟩ => show win1_6.index t (1 : Fin 2) * 128 + 1 * q.val = q.val; omega
  rw [hemb]
  refine Sage.layer_row true _ _ _ _ _ _ _ _ _ _ p _ q (fun l => ?_) (fun l => ?_) (fun l => ?_) ?_ (fun l => ?_)
  · -- the band of the scaled sum
    rw [Sage.scaleRows_ix2, Sage.scaleRows_ix2]
    have hl := l.isLt
    refine congrArg₂ (· * ·) ?_ ?_
    · show V c main_v33 (((cfg1.win 0).blk t).view.emb (ix2 p l)) = V c main_v33 (ix2 _ l)
      refine congrArg _ (funext fun a => Fin.ext ?_)
      match a with
      | ⟨0, _⟩ => show win1_0.index t (0 : Fin 2) * 5000 + 1 * p.val = win1_6.index t (0 : Fin 2) * 5000 + 1 * p.val; omega
      | ⟨1, _⟩ => show win1_0.index t (1 : Fin 2) * 128 + 1 * l.val = l.val; omega
    · show V c main_v11 (((cfg1.win 2).blk t).view.emb (ix2 p (0 : Fin 1))) = V c main_v11 (ix2 _ (0 : Fin 1))
      refine congrArg _ (funext fun a => Fin.ext ?_)
      match a with
      | ⟨0, _⟩ => show win1_2.index t (0 : Fin 2) * 5000 + 1 * p.val = win1_6.index t (0 : Fin 2) * 5000 + 1 * p.val; omega
      | ⟨1, _⟩ => show win1_2.index t (1 : Fin 2) * 1 + 1 * 0 = 0; omega
  · -- the band of the own features
    have hl := l.isLt
    show V c main_v23 (((cfg1.win 1).blk t).view.emb (ix2 p l)) = V c main_v23 (ix2 _ l)
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * l.val = l.val; omega
  · -- the first weight matrix: its one block is the whole matrix
    have hl := l.isLt
    show V c main_arg6 (((cfg1.win 3).blk t).view.emb (ix2 l q)) = V c main_arg6 (ix2 l q)
    refine congrArg _ (funext fun a => Fin.ext ?_)
    match a with
    | ⟨0, _⟩ => show win1_3.index t (0 : Fin 2) * 128 + 1 * l.val = l.val; omega
    | ⟨1, _⟩ => show win1_3.index t (1 : Fin 2) * 128 + 1 * q.val = q.val; omega
  · -- the bias row
    show V c main_v34 (((cfg1.win 4).blk t).view.emb (ix2 (0 : Fin 1) q)) = V c main_v34 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · -- the second weight matrix
    have hl := l.isLt
    show V c main_arg8 (((cfg1.win 5).blk t).view.emb (ix2 l q)) = V c main_arg8 (ix2 l q)
    refine congrArg _ (funext fun a => Fin.ext ?_)
    match a with
    | ⟨0, _⟩ => show win1_5.index t (0 : Fin 2) * 128 + 1 * l.val = l.val; omega
    | ⟨1, _⟩ => show win1_5.index t (1 : Fin 2) * 128 + 1 * q.val = q.val; omega

/-- An index of the output array is in point t's band iff each coordinate is in the band's range on its axis. -/
theorem mem_band (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v35).slice (win1_6.rect t)).set ↔ _
  rw [View.set_slice_whole, Rect.mem_set_unit]
  exact Iff.rfl

/-- The bands tile the output array: row r is in the band of point r / 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := band_onto ⟨(i 0).val / 5000, by omega⟩
  have ht' : t.val = (i 0).val / 5000 := ht
  obtain ⟨m6r, m6c, -⟩ := maps t
  refine ⟨t, flush1_6 t, ?_⟩
  rw [mem_band]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- After the region the output array holds the layer of the arrays the region found. -/
theorem final (c : Dev nD) :
    (dat1 V c).arrAt 6 cfg1.N
      = whole (V c main_v33) (V c main_v23) (V c main_v11) (V c main_arg6) (V c main_v34) (V c main_arg8) :=
  (dat1 V c).arrAt_eq_of_cover 6 _ (fun t _ => flushed_eq V c t) cover

end Cert.KernelIdeal.Region1

end
-- ==== Proof.Region2.lean ====
/-
  The third kernel region writes one layer of the network into its output array.

  The region runs the body at 20 grid points.  At point t the body loads rows 5000 t … 5000 t + 4999 of the aggregated
  sum, of the nodes' own features and of the reciprocal degree (one column), and the two whole weight matrices and the
  one-row bias, whose blocks do not move with t.  What it stores is the layer of those bands, which, the layer being
  row-wise, is the band of the layer of the whole arrays.  The 20 bands tile the 100000 rows, so after the last
  write-back the output array holds the layer of the arrays the region found, whatever those arrays are.
-/
import proofs.«159616_j65171833749590_2_alg».proof.Proof.Gen.KernelIdeal.Frame
import proofs.«159616_j65171833749590_2_alg».proof.Proof.LibSageSpellings
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer of the six arrays the region reads, as one array. -/
abbrev whole (a0 a1 : S100000x128.Idx → EReal) (a2 : S100000x1.Idx → EReal) (a3 : S128x128.Idx → EReal)
    (a4 : S1x128.Idx → EReal) (a5 : S128x128.Idx → EReal) : S100000x128.Idx → EReal :=
  Sage.layer false (Sage.scaleRows a0 a2) a1 a3 a4 a5

/-- What the body stores is the layer of the blocks it loaded. -/
theorem stored_eq (x0 : Vec Ideal S5000x128 .f32) (x2 : Vec Ideal S5000x1 .f32) (x1 : Vec Ideal S5000x128 .f32)
    (x3 : Vec Ideal S128x128 .f32) (x5 : Vec Ideal S128x128 .f32) (x4 : Vec Ideal S1x128 .f32) :
    k2_pay1 (F := Ideal) x0 x2 x1 x3 x5 x4 = Sage.layer false (Sage.scaleRows x0 x2) x1 x3 x4 x5 := by
  unfold k2_pay1
  simp only [shapeCast_self]
  exact Sage.Spell.body_core dot_S5000x128_S128x128_S5000x128_1_0_0_1_n_n rfl rfl (fun _ _ => rfl) (fun _ _ => rfl)
    (fun _ _ => rfl) (fun _ _ => rfl) x0 x1 x2 x3 x5 x4 _ _ _

/-- The index maps over the grid: the three banded inputs move with the output, one block of rows per point, the
    parameters stay at the origin. -/
theorem maps : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Every band of rows is some point's. -/
theorem band_onto : ∀ s : Fin 20, ∃ t : Fin cfg2.N, t.val = s.val :=
  (by decide +kernel : ∀ s : Fin 20, ∃ t : Fin grid2.N, t.val = s.val)

/-- What point t writes back is band t of the layer of the arrays the region found. -/
theorem flushed_eq (c : Dev nD) (t : Fin cfg2.N) :
    (dat2 V c).flushed 6 t = ((cfg2.win 6).blk t).view.read (Elt Ideal)
      (whole (V c main_v45) (V c main_v35) (V c main_v11) (V c main_arg9) (V c main_v46) (V c main_arg11)) := by
  show (cfg2.win 6).cut (grid2.coords t) ((dat2 V c).after 6 t) = _
  rw [after2_6]
  unfold out2_6
  rw [View.canon_unit_zero origin]
  simp only [View.ld_unit_zero (S := S5000x128) origin, View.ld_unit_zero (S := S5000x1) origin,
    View.ld_unit_zero (S := S128x128) origin, View.ld_unit_zero (S := S1x128) origin]
  rw [stored_eq]
  obtain ⟨m6r, m6c, m0r, m0c, m1r, m1c, m2r, m2c, m3r, m3c, m4r, m4c, m5r, m5c⟩ := maps t
  funext j
  obtain ⟨p, q, rfl⟩ : ∃ (p : Fin 5000) (q : Fin 128), j = ix2 p q := ⟨j 0, j 1, eq_ix2 j⟩
  have hp := p.isLt
  have hq := q.isLt
  -- the index of the whole array that (p, q) of band t is
  have hrow : win2_6.index t (0 : Fin 2) * 5000 + 1 * p.val < 100000 := by
    have ht := t.isLt
    have hN : cfg2.N = 20 := N_2
    omega
  show Sage.layer false (Sage.scaleRows (iblk2 V c 0 t) (iblk2 V c 2 t)) (iblk2 V c 1 t) (iblk2 V c 3 t)
      (iblk2 V c 4 t) (iblk2 V c 5 t) (ix2 p q)
    = whole (V c main_v45) (V c main_v35) (V c main_v11) (V c main_arg9) (V c main_v46) (V c main_arg11)
        (((cfg2.win 6).blk t).view.emb (ix2 p q))
  have hemb : ((cfg2.win 6).blk t).view.emb (ix2 p q)
      = ix2 (⟨win2_6.index t (0 : Fin 2) * 5000 + 1 * p.val, hrow⟩ : Fin 100000) q := by
    funext a; apply Fin.ext
    match a with
    | ⟨0, _⟩ => rfl
    | ⟨1, _⟩ => show win2_6.index t (1 : Fin 2) * 128 + 1 * q.val = q.val; omega
  rw [hemb]
  refine Sage.layer_row false _ _ _ _ _ _ _ _ _ _ p _ q (fun l => ?_) (fun l => ?_) (fun l => ?_) ?_ (fun l => ?_)
  · -- the band of the scaled sum
    rw [Sage.scaleRows_ix2, Sage.scaleRows_ix2]
    have hl := l.isLt
    refine congrArg₂ (· * ·) ?_ ?_
    · show V c main_v45 (((cfg2.win 0).blk t).view.emb (ix2 p l)) = V c main_v45 (ix2 _ l)
      refine congrArg _ (funext fun a => Fin.ext ?_)
      match a with
      | ⟨0, _⟩ => show win2_0.index t (0 : Fin 2) * 5000 + 1 * p.val = win2_6.index t (0 : Fin 2) * 5000 + 1 * p.val; omega
      | ⟨1, _⟩ => show win2_0.index t (1 : Fin 2) * 128 + 1 * l.val = l.val; omega
    · show V c main_v11 (((cfg2.win 2).blk t).view.emb (ix2 p (0 : Fin 1))) = V c main_v11 (ix2 _ (0 : Fin 1))
      refine congrArg _ (funext fun a => Fin.ext ?_)
      match a with
      | ⟨0, _⟩ => show win2_2.index t (0 : Fin 2) * 5000 + 1 * p.val = win2_6.index t (0 : Fin 2) * 5000 + 1 * p.val; omega
      | ⟨1, _⟩ => show win2_2.index t (1 : Fin 2) * 1 + 1 * 0 = 0; omega
  · -- the band of the own features
    have hl := l.isLt
    show V c main_v35 (((cfg2.win 1).blk t).view.emb (ix2 p l)) = V c main_v35 (ix2 _ l)
    refine congrArg _ (funext fun a => Fin.ext ?_)
    match a with
    | ⟨0, _⟩ => show win2_1.index t (0 : Fin 2) * 5000 + 1 * p.val = win2_6.index t (0 : Fin 2) * 5000 + 1 * p.val; omega
    | ⟨1, _⟩ => show win2_1.index t (1 : Fin 2) * 128 + 1 * l.val = l.val; omega
  · -- the first weight matrix: its one block is the whole matrix
    have hl := l.isLt
    show V c main_arg9 (((cfg2.win 3).blk t).view.emb (ix2 l q)) = V c main_arg9 (ix2 l q)
    refine congrArg _ (funext fun a => Fin.ext ?_)
    match a with
    | ⟨0, _⟩ => show win2_3.index t (0 : Fin 2) * 128 + 1 * l.val = l.val; omega
    | ⟨1, _⟩ => show win2_3.index t (1 : Fin 2) * 128 + 1 * q.val = q.val; omega
  · -- the bias row
    show V c main_v46 (((cfg2.win 4).blk t).view.emb (ix2 (0 : Fin 1) q)) = V c main_v46 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  · -- the second weight matrix
    have hl := l.isLt
    show V c main_arg11 (((cfg2.win 5).blk t).view.emb (ix2 l q)) = V c main_arg11 (ix2 l q)
    refine congrArg _ (funext fun a => Fin.ext ?_)
    match a with
    | ⟨0, _⟩ => show win2_5.index t (0 : Fin 2) * 128 + 1 * l.val = l.val; omega
    | ⟨1, _⟩ => show win2_5.index t (1 : Fin 2) * 128 + 1 * q.val = q.val; omega

/-- An index of the output array is in point t's band iff each coordinate is in the band's range on its axis. -/
theorem mem_band (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v47).slice (win2_6.rect t)).set ↔ _
  rw [View.set_slice_whole, Rect.mem_set_unit]
  exact Iff.rfl

/-- The bands tile the output array: row r is in the band of point r / 5000. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := band_onto ⟨(i 0).val / 5000, by omega⟩
  have ht' : t.val = (i 0).val / 5000 := ht
  obtain ⟨m6r, m6c, -⟩ := maps t
  refine ⟨t, flush2_6 t, ?_⟩
  rw [mem_band]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- After the region the output array holds the layer of the arrays the region found. -/
theorem final (c : Dev nD) :
    (dat2 V c).arrAt 6 cfg2.N
      = whole (V c main_v45) (V c main_v35) (V c main_v11) (V c main_arg9) (V c main_v46) (V c main_arg11) :=
  (dat2 V c).arrAt_eq_of_cover 6 _ (fun t _ => flushed_eq V c t) cover

end Cert.KernelIdeal.Region2

end
-- ==== Proof.KernelFold.lean ====
/-
  What every buffer of the kernel program holds at every boundary between its segments, as a term of the launch memory.

  The program computes, from the edge list, the source and destination index vectors, the in-degree of every node
  clamped below at one and its reciprocal (once), and then three times: gather the rows of the current features at
  the (wrapped) source indices, add them up at the destination indices ("aggregate"), view the bias vector as a row,
  and run a kernel region that writes the next layer.  Walking the boundaries in order, each host stretch is read
  back over whatever contents it starts from, and each region leaves its output array at the layer of the arrays it
  found (Region0 / Region1 / Region2) and every other buffer as it was.  The last boundary's contents at the result
  buffer is therefore the threefold layer of the arguments.
-/
import proofs.«159616_j65171833749590_2_alg».proof.Proof.Gen.KernelIdeal.Frame
import proofs.«159616_j65171833749590_2_alg».proof.Proof.Region0
import proofs.«159616_j65171833749590_2_alg».proof.Proof.Region1
import proofs.«159616_j65171833749590_2_alg».proof.Proof.Region2
import Idealize.ShloMosaic.Lib.StableHlo.Run
import Idealize.ShloMosaic.PureOps.Ideal.Laws

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-! ## The host side's terms -/

/-- Row 0 of the edge list: the source node of every edge. -/
def srcIdx (ei : IVec S2x600000 32) : IVec S600000 32 :=
  shapeCast _ (extractStridedSlice S1x600000 ![0, 0] ei slices_S2x600000_S1x600000_0_0) shapeCasts_S1x600000_S600000

/-- Row 1 of the edge list: the destination node of every edge. -/
def dstIdx (ei : IVec S2x600000 32) : IVec S600000 32 :=
  shapeCast _ (extractStridedSlice S1x600000 ![1, 0] ei slices_S2x600000_S1x600000_1_0) shapeCasts_S1x600000_S600000

/-- Gather the rows of h at the source indices (a negative index wrapped by the number of nodes) and add them up at
    the destination indices, from zero. -/
def aggregateOf (src dst : IVec S600000 32) (h : FVec Ideal S100000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

def aggregate (ei : IVec S2x600000 32) (h : FVec Ideal S100000x128 .f32) : FVec Ideal S100000x128 .f32 :=
  aggregateOf (srcIdx ei) (dstIdx ei) h

/-- The in-degree of every node (ones added up at the destination indices), clamped below at one. -/
def clamped (ei : IVec S2x600000 32) : FVec Ideal S100000 .f32 :=
  maximumf (broadcastInDim S100000 ![] bcast_S_S100000 (id (constant S_ .f32 0x3F800000#32)))
    (Host.scatterAdd scatter_S100000_S600000x1_S600000_n_0_0_1
      (broadcastInDim S100000 ![] bcast_S_S100000 (constant S_ .f32 0x00000000#32))
      (broadcastInDim S600000x1 ![0] bcast_S600000_S600000x1_0 (dstIdx ei))
      (broadcastInDim S600000 ![] bcast_S_S600000 (constant S_ .f32 0x3F800000#32)))

/-- One over the clamped degree, as a one-column array. -/
def recip (ei : IVec S2x600000 32) : FVec Ideal S100000x1 .f32 :=
  shapeCast _ (Host.divf (broadcastInDim S100000 ![] bcast_S_S100000 (constant S_ .f32 0x3F800000#32)) (clamped ei))
    shapeCasts_S100000_S100000x1

/-- The bias vector as a one-row array. -/
def biasRow (b : FVec Ideal S128 .f32) : FVec Ideal S1x128 .f32 := shapeCast _ b shapeCasts_S128_S1x128

/-- One layer as the kernel program computes it: the aggregate scaled by the reciprocal degree is the mean. -/
def layerK (ei : IVec S2x600000 32) (relu : Bool) (h : FVec Ideal S100000x128 .f32) (wl : FVec Ideal S128x128 .f32)
    (b : FVec Ideal S128 .f32) (wr : FVec Ideal S128x128 .f32) : FVec Ideal S100000x128 .f32 :=
  Sage.layer relu (Sage.scaleRows (aggregate ei h) (recip ei)) h wl (biasRow b) wr

variable (m : (ℓ : Loc nD τ sig) → Buf (Elt Ideal) ℓ) (ρ : Dev nD → PrngReg)

/-! ## Region 0's entry: the three host stretches in front of it, read back from the launch memory -/

theorem at3_v1 (c : Dev nD) : W3 m ρ c (Proc.devRef .tc main_v1) = srcIdx (m ((c : Thread nD τ).loc main_arg1)) := by
  show StableHlo.after hostOps0_2 (StableHlo.after hostOps0_1 (StableHlo.after hostOps0 (W0 m ρ c))) (Proc.devRef .tc main_v1) = _
  dsimp only [hostOps0_2, hostOps0_1, hostOps0]
  after_results <;> rfl
theorem at3_v3 (c : Dev nD) : W3 m ρ c (Proc.devRef .tc main_v3) = dstIdx (m ((c : Thread nD τ).loc main_arg1)) := by
  show StableHlo.after hostOps0_2 (StableHlo.after hostOps0_1 (StableHlo.after hostOps0 (W0 m ρ c))) (Proc.devRef .tc main_v3) = _
  dsimp only [hostOps0_2, hostOps0_1, hostOps0]
  after_results <;> rfl
theorem at3_v11 (c : Dev nD) : W3 m ρ c (Proc.devRef .tc main_v11) = recip (m ((c : Thread nD τ).loc main_arg1)) := by
  show StableHlo.after hostOps0_2 (StableHlo.after hostOps0_1 (StableHlo.after hostOps0 (W0 m ρ c))) (Proc.devRef .tc main_v11) = _
  dsimp only [hostOps0_2, hostOps0_1, hostOps0]
  after_results <;> rfl
/-- What the stretch in front of region 0 leaves at the aggregate's buffer, over any incoming contents. -/
theorem hostOps0_2_agg (W : Valuation τ sig (Elt Ideal)) : StableHlo.after (hostOps0_2 (F := Ideal)) W (Proc.devRef .tc main_v21)
    = aggregateOf (W (Proc.devRef .tc main_v1)) (W (Proc.devRef .tc main_v3)) (W (Proc.devRef .tc main_arg0)) := by
  dsimp only [hostOps0_2]
  after_results_simp <;> rfl
theorem at2_v1 (c : Dev nD) : W2 m ρ c (Proc.devRef .tc main_v1) = srcIdx (m ((c : Thread nD τ).loc main_arg1)) := by
  show StableHlo.after hostOps0_1 (StableHlo.after hostOps0 (W0 m ρ c)) (Proc.devRef .tc main_v1) = _
  dsimp only [hostOps0_1, hostOps0]
  after_results <;> rfl
theorem at2_v3 (c : Dev nD) : W2 m ρ c (Proc.devRef .tc main_v3) = dstIdx (m ((c : Thread nD τ).loc main_arg1)) := by
  show StableHlo.after hostOps0_1 (StableHlo.after hostOps0 (W0 m ρ c)) (Proc.devRef .tc main_v3) = _
  dsimp only [hostOps0_1, hostOps0]
  after_results <;> rfl
theorem at2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  dsimp only [hostOps0_1, hostOps0]
  after_results <;> rfl
theorem at3_v21 (c : Dev nD) : W3 m ρ c (Proc.devRef .tc main_v21) = aggregate (m ((c : Thread nD τ).loc main_arg1)) (m ((c : Thread nD τ).loc main_arg0)) := by
  refine (hostOps0_2_agg (W2 m ρ c)).trans ?_
  rw [at2_v1 m ρ c, at2_v3 m ρ c, at2_arg0 m ρ c]
  rfl
theorem at3_v22 (c : Dev nD) : W3 m ρ c (Proc.devRef .tc main_v22) = biasRow (m ((c : Thread nD τ).loc main_arg4)) := by
  show StableHlo.after hostOps0_2 (StableHlo.after hostOps0_1 (StableHlo.after hostOps0 (W0 m ρ c))) (Proc.devRef .tc main_v22) = _
  dsimp only [hostOps0_2, hostOps0_1, hostOps0]
  after_results <;> rfl
theorem at3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results <;> rfl
theorem at3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results <;> rfl
theorem at3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results <;> rfl
theorem at3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results <;> rfl
theorem at3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0_2, hostOps0_1, hostOps0]
  after_results <;> rfl
theorem at3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  dsimp only [hostOps0_2, hostOps0_1, hostOps0]
  after_results <;> rfl
theorem at3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  dsimp only [hostOps0_2, hostOps0_1, hostOps0]
  after_results <;> rfl
theorem at3_arg10 (c : Dev nD) : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  dsimp only [hostOps0_2, hostOps0_1, hostOps0]
  after_results <;> rfl
theorem at3_arg11 (c : Dev nD) : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  dsimp only [hostOps0_2, hostOps0_1, hostOps0]
  after_results <;> rfl

/-! ## Region 0's exit -/

theorem at4_v1 (c : Dev nD) : W4 m ρ c (Proc.devRef .tc main_v1) = srcIdx (m ((c : Thread nD τ).loc main_arg1)) :=
  (W4_of_ne m ρ c main_v1 (by decide)).trans (at3_v1 m ρ c)
theorem at4_v3 (c : Dev nD) : W4 m ρ c (Proc.devRef .tc main_v3) = dstIdx (m ((c : Thread nD τ).loc main_arg1)) :=
  (W4_of_ne m ρ c main_v3 (by decide)).trans (at3_v3 m ρ c)
theorem at4_arg6 (c : Dev nD) : W4 m ρ c (Proc.devRef .tc main_arg6) = m ((c : Thread nD τ).loc main_arg6) :=
  (W4_of_ne m ρ c main_arg6 (by decide)).trans (at3_arg6 m ρ c)
theorem at4_arg7 (c : Dev nD) : W4 m ρ c (Proc.devRef .tc main_arg7) = m ((c : Thread nD τ).loc main_arg7) :=
  (W4_of_ne m ρ c main_arg7 (by decide)).trans (at3_arg7 m ρ c)
theorem at4_arg8 (c : Dev nD) : W4 m ρ c (Proc.devRef .tc main_arg8) = m ((c : Thread nD τ).loc main_arg8) :=
  (W4_of_ne m ρ c main_arg8 (by decide)).trans (at3_arg8 m ρ c)
theorem at4_arg9 (c : Dev nD) : W4 m ρ c (Proc.devRef .tc main_arg9) = m ((c : Thread nD τ).loc main_arg9) :=
  (W4_of_ne m ρ c main_arg9 (by decide)).trans (at3_arg9 m ρ c)
theorem at4_arg10 (c : Dev nD) : W4 m ρ c (Proc.devRef .tc main_arg10) = m ((c : Thread nD τ).loc main_arg10) :=
  (W4_of_ne m ρ c main_arg10 (by decide)).trans (at3_arg10 m ρ c)
theorem at4_arg11 (c : Dev nD) : W4 m ρ c (Proc.devRef .tc main_arg11) = m ((c : Thread nD τ).loc main_arg11) :=
  (W4_of_ne m ρ c main_arg11 (by decide)).trans (at3_arg11 m ρ c)
theorem at4_v11 (c : Dev nD) : W4 m ρ c (Proc.devRef .tc main_v11) = recip (m ((c : Thread nD τ).loc main_arg1)) :=
  (W4_arr m ρ c 2).trans ((((dat0 (V3 m ρ) c).arrAt_in 2 rfl _).trans (A_eq0 (V3 m ρ) c 2)).trans (at3_v11 m ρ c))
theorem at4_v23 (c : Dev nD) : W4 m ρ c (Proc.devRef .tc main_v23) = layerK (m ((c : Thread nD τ).loc main_arg1)) true (m ((c : Thread nD τ).loc main_arg0)) (m ((c : Thread nD τ).loc main_arg3)) (m ((c : Thread nD τ).loc main_arg4)) (m ((c : Thread nD τ).loc main_arg5)) :=
  (W4_arr m ρ c 6).trans ((Region0.final (V3 m ρ) c).trans
    (show Region0.whole (W3 m ρ c (Proc.devRef .tc main_v21)) (W3 m ρ c (Proc.devRef .tc main_arg0)) (W3 m ρ c (Proc.devRef .tc main_v11))
        (W3 m ρ c (Proc.devRef .tc main_arg3)) (W3 m ρ c (Proc.devRef .tc main_v22)) (W3 m ρ c (Proc.devRef .tc main_arg5)) = _ from by
      rw [at3_v21 m ρ c, at3_arg0 m ρ c, at3_v11 m ρ c, at3_arg3 m ρ c, at3_v22 m ρ c, at3_arg5 m ρ c]
      rfl))

/-! ## Region 1's entry -/

/-- What the stretch in front of the next region leaves, over any incoming contents. -/
theorem hostOps1_agg (W : Valuation τ sig (Elt Ideal)) : StableHlo.after (hostOps1 (F := Ideal)) W (Proc.devRef .tc main_v33)
    = aggregateOf (W (Proc.devRef .tc main_v1)) (W (Proc.devRef .tc main_v3)) (W (Proc.devRef .tc main_v23)) := by
  dsimp only [hostOps1]
  after_results <;> rfl
theorem hostOps1_bias (W : Valuation τ sig (Elt Ideal)) : StableHlo.after (hostOps1 (F := Ideal)) W (Proc.devRef .tc main_v34)
    = biasRow (W (Proc.devRef .tc main_arg7)) := by
  dsimp only [hostOps1]
  after_results <;> rfl
theorem hostOps1_keeps_v23 (W : Valuation τ sig (Elt Ideal)) : StableHlo.after (hostOps1 (F := Ideal)) W (Proc.devRef .tc main_v23) = W (Proc.devRef .tc main_v23) := by
  dsimp only [hostOps1]
  after_results <;> rfl
theorem hostOps1_keeps_v11 (W : Valuation τ sig (Elt Ideal)) : StableHlo.after (hostOps1 (F := Ideal)) W (Proc.devRef .tc main_v11) = W (Proc.devRef .tc main_v11) := by
  dsimp only [hostOps1]
  after_results <;> rfl
theorem hostOps1_keeps_v1 (W : Valuation τ sig (Elt Ideal)) : StableHlo.after (hostOps1 (F := Ideal)) W (Proc.devRef .tc main_v1) = W (Proc.devRef .tc main_v1) := by
  dsimp only [hostOps1]
  after_results <;> rfl
theorem hostOps1_keeps_v3 (W : Valuation τ sig (Elt Ideal)) : StableHlo.after (hostOps1 (F := Ideal)) W (Proc.devRef .tc main_v3) = W (Proc.devRef .tc main_v3) := by
  dsimp only [hostOps1]
  after_results <;> rfl
theorem hostOps1_keeps_arg6 (W : Valuation τ sig (Elt Ideal)) : StableHlo.after (hostOps1 (F := Ideal)) W (Proc.devRef .tc main_arg6) = W (Proc.devRef .tc main_arg6) := by
  dsimp only [hostOps1]
  after_results <;> rfl
theorem hostOps1_keeps_arg8 (W : Valuation τ sig (Elt Ideal)) : StableHlo.after (hostOps1 (F := Ideal)) W (Proc.devRef .tc main_arg8) = W (Proc.devRef .tc main_arg8) := by
  dsimp only [hostOps1]
  after_results <;> rfl
theorem hostOps1_keeps_arg9 (W : Valuation τ sig (Elt Ideal)) : StableHlo.after (hostOps1 (F := Ideal)) W (Proc.devRef .tc main_arg9) = W (Proc.devRef .tc main_arg9) := by
  dsimp only [hostOps1]
  after_results <;> rfl
theorem hostOps1_keeps_arg10 (W : Valuation τ sig (Elt Ideal)) : StableHlo.after (hostOps1 (F := Ideal)) W (Proc.devRef .tc main_arg10) = W (Proc.devRef .tc main_arg10) := by
  dsimp only [hostOps1]
  after_results <;> rfl
theorem hostOps1_keeps_arg11 (W : Valuation τ sig (Elt Ideal)) : StableHlo.after (hostOps1 (F := Ideal)) W (Proc.devRef .tc main_arg11) = W (Proc.devRef .tc main_arg11) := by
  dsimp only [hostOps1]
  after_results <;> rfl
theorem at5_v23 (c : Dev nD) : W5 m ρ c (Proc.devRef .tc main_v23) = layerK (m ((c : Thread nD τ).loc main_arg1)) true (m ((c : Thread nD τ).loc main_arg0)) (m ((c : Thread nD τ).loc main_arg3)) (m ((c : Thread nD τ).loc main_arg4)) (m ((c : Thread nD τ).loc main_arg5)) :=
  (hostOps1_keeps_v23 (W4 m ρ c)).trans (at4_v23 m ρ c)
theorem at5_v11 (c : Dev nD) : W5 m ρ c (Proc.devRef .tc main_v11) = recip (m ((c : Thread nD τ).loc main_arg1)) :=
  (hostOps1_keeps_v11 (W4 m ρ c)).trans (at4_v11 m ρ c)
theorem at5_v1 (c : Dev nD) : W5 m ρ c (Proc.devRef .tc main_v1) = srcIdx (m ((c : Thread nD τ).loc main_arg1)) :=
  (hostOps1_keeps_v1 (W4 m ρ c)).trans (at4_v1 m ρ c)
theorem at5_v3 (c : Dev nD) : W5 m ρ c (Proc.devRef .tc main_v3) = dstIdx (m ((c : Thread nD τ).loc main_arg1)) :=
  (hostOps1_keeps_v3 (W4 m ρ c)).trans (at4_v3 m ρ c)
theorem at5_arg6 (c : Dev nD) : W5 m ρ c (Proc.devRef .tc main_arg6) = m ((c : Thread nD τ).loc main_arg6) :=
  (hostOps1_keeps_arg6 (W4 m ρ c)).trans (at4_arg6 m ρ c)
theorem at5_arg8 (c : Dev nD) : W5 m ρ c (Proc.devRef .tc main_arg8) = m ((c : Thread nD τ).loc main_arg8) :=
  (hostOps1_keeps_arg8 (W4 m ρ c)).trans (at4_arg8 m ρ c)
theorem at5_arg9 (c : Dev nD) : W5 m ρ c (Proc.devRef .tc main_arg9) = m ((c : Thread nD τ).loc main_arg9) :=
  (hostOps1_keeps_arg9 (W4 m ρ c)).trans (at4_arg9 m ρ c)
theorem at5_arg10 (c : Dev nD) : W5 m ρ c (Proc.devRef .tc main_arg10) = m ((c : Thread nD τ).loc main_arg10) :=
  (hostOps1_keeps_arg10 (W4 m ρ c)).trans (at4_arg10 m ρ c)
theorem at5_arg11 (c : Dev nD) : W5 m ρ c (Proc.devRef .tc main_arg11) = m ((c : Thread nD τ).loc main_arg11) :=
  (hostOps1_keeps_arg11 (W4 m ρ c)).trans (at4_arg11 m ρ c)
theorem at5_v33 (c : Dev nD) : W5 m ρ c (Proc.devRef .tc main_v33) = aggregate (m ((c : Thread nD τ).loc main_arg1)) (layerK (m ((c : Thread nD τ).loc main_arg1)) true (m ((c : Thread nD τ).loc main_arg0)) (m ((c : Thread nD τ).loc main_arg3)) (m ((c : Thread nD τ).loc main_arg4)) (m ((c : Thread nD τ).loc main_arg5))) := by
  refine (hostOps1_agg (W4 m ρ c)).trans ?_
  rw [at4_v1 m ρ c, at4_v3 m ρ c, at4_v23 m ρ c]
  rfl
theorem at5_v34 (c : Dev nD) : W5 m ρ c (Proc.devRef .tc main_v34) = biasRow (m ((c : Thread nD τ).loc main_arg7)) := by
  refine (hostOps1_bias (W4 m ρ c)).trans ?_
  rw [at4_arg7 m ρ c]

/-! ## Region 1's exit -/

theorem at6_v1 (c : Dev nD) : W6 m ρ c (Proc.devRef .tc main_v1) = srcIdx (m ((c : Thread nD τ).loc main_arg1)) :=
  (W6_of_ne m ρ c main_v1 (by decide)).trans (at5_v1 m ρ c)
theorem at6_v3 (c : Dev nD) : W6 m ρ c (Proc.devRef .tc main_v3) = dstIdx (m ((c : Thread nD τ).loc main_arg1)) :=
  (W6_of_ne m ρ c main_v3 (by decide)).trans (at5_v3 m ρ c)
theorem at6_arg9 (c : Dev nD) : W6 m ρ c (Proc.devRef .tc main_arg9) = m ((c : Thread nD τ).loc main_arg9) :=
  (W6_of_ne m ρ c main_arg9 (by decide)).trans (at5_arg9 m ρ c)
theorem at6_arg10 (c : Dev nD) : W6 m ρ c (Proc.devRef .tc main_arg10) = m ((c : Thread nD τ).loc main_arg10) :=
  (W6_of_ne m ρ c main_arg10 (by decide)).trans (at5_arg10 m ρ c)
theorem at6_arg11 (c : Dev nD) : W6 m ρ c (Proc.devRef .tc main_arg11) = m ((c : Thread nD τ).loc main_arg11) :=
  (W6_of_ne m ρ c main_arg11 (by decide)).trans (at5_arg11 m ρ c)
theorem at6_v11 (c : Dev nD) : W6 m ρ c (Proc.devRef .tc main_v11) = recip (m ((c : Thread nD τ).loc main_arg1)) :=
  (W6_arr m ρ c 2).trans ((((dat1 (V5 m ρ) c).arrAt_in 2 rfl _).trans (A_eq1 (V5 m ρ) c 2)).trans (at5_v11 m ρ c))
theorem at6_v35 (c : Dev nD) : W6 m ρ c (Proc.devRef .tc main_v35) = layerK (m ((c : Thread nD τ).loc main_arg1)) true (layerK (m ((c : Thread nD τ).loc main_arg1)) true (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) :=
  (W6_arr m ρ c 6).trans ((Region1.final (V5 m ρ) c).trans
    (show Region1.whole (W5 m ρ c (Proc.devRef .tc main_v33)) (W5 m ρ c (Proc.devRef .tc main_v23)) (W5 m ρ c (Proc.devRef .tc main_v11))
        (W5 m ρ c (Proc.devRef .tc main_arg6)) (W5 m ρ c (Proc.devRef .tc main_v34)) (W5 m ρ c (Proc.devRef .tc main_arg8)) = _ from by
      rw [at5_v33 m ρ c, at5_v23 m ρ c, at5_v11 m ρ c, at5_arg6 m ρ c, at5_v34 m ρ c, at5_arg8 m ρ c]
      rfl))

/-! ## Region 2's entry -/

/-- What the stretch in front of the next region leaves, over any incoming contents. -/
theorem hostOps2_agg (W : Valuation τ sig (Elt Ideal)) : StableHlo.after (hostOps2 (F := Ideal)) W (Proc.devRef .tc main_v45)
    = aggregateOf (W (Proc.devRef .tc main_v1)) (W (Proc.devRef .tc main_v3)) (W (Proc.devRef .tc main_v35)) := by
  dsimp only [hostOps2]
  after_results <;> rfl
theorem hostOps2_bias (W : Valuation τ sig (Elt Ideal)) : StableHlo.after (hostOps2 (F := Ideal)) W (Proc.devRef .tc main_v46)
    = biasRow (W (Proc.devRef .tc main_arg10)) := by
  dsimp only [hostOps2]
  after_results <;> rfl
theorem hostOps2_keeps_v35 (W : Valuation τ sig (Elt Ideal)) : StableHlo.after (hostOps2 (F := Ideal)) W (Proc.devRef .tc main_v35) = W (Proc.devRef .tc main_v35) := by
  dsimp only [hostOps2]
  after_results <;> rfl
theorem hostOps2_keeps_v11 (W : Valuation τ sig (Elt Ideal)) : StableHlo.after (hostOps2 (F := Ideal)) W (Proc.devRef .tc main_v11) = W (Proc.devRef .tc main_v11) := by
  dsimp only [hostOps2]
  after_results <;> rfl
theorem hostOps2_keeps_arg9 (W : Valuation τ sig (Elt Ideal)) : StableHlo.after (hostOps2 (F := Ideal)) W (Proc.devRef .tc main_arg9) = W (Proc.devRef .tc main_arg9) := by
  dsimp only [hostOps2]
  after_results <;> rfl
theorem hostOps2_keeps_arg11 (W : Valuation τ sig (Elt Ideal)) : StableHlo.after (hostOps2 (F := Ideal)) W (Proc.devRef .tc main_arg11) = W (Proc.devRef .tc main_arg11) := by
  dsimp only [hostOps2]
  after_results <;> rfl
theorem hostOps2_keeps_v1 (W : Valuation τ sig (Elt Ideal)) : StableHlo.after (hostOps2 (F := Ideal)) W (Proc.devRef .tc main_v1) = W (Proc.devRef .tc main_v1) := by
  dsimp only [hostOps2]
  after_results <;> rfl
theorem hostOps2_keeps_v3 (W : Valuation τ sig (Elt Ideal)) : StableHlo.after (hostOps2 (F := Ideal)) W (Proc.devRef .tc main_v3) = W (Proc.devRef .tc main_v3) := by
  dsimp only [hostOps2]
  after_results <;> rfl
theorem hostOps2_keeps_arg10 (W : Valuation τ sig (Elt Ideal)) : StableHlo.after (hostOps2 (F := Ideal)) W (Proc.devRef .tc main_arg10) = W (Proc.devRef .tc main_arg10) := by
  dsimp only [hostOps2]
  after_results <;> rfl
theorem at7_v35 (c : Dev nD) : W7 m ρ c (Proc.devRef .tc main_v35) = layerK (m ((c : Thread nD τ).loc main_arg1)) true (layerK (m ((c : Thread nD τ).loc main_arg1)) true (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) :=
  (hostOps2_keeps_v35 (W6 m ρ c)).trans (at6_v35 m ρ c)
theorem at7_v11 (c : Dev nD) : W7 m ρ c (Proc.devRef .tc main_v11) = recip (m ((c : Thread nD τ).loc main_arg1)) :=
  (hostOps2_keeps_v11 (W6 m ρ c)).trans (at6_v11 m ρ c)
theorem at7_arg9 (c : Dev nD) : W7 m ρ c (Proc.devRef .tc main_arg9) = m ((c : Thread nD τ).loc main_arg9) :=
  (hostOps2_keeps_arg9 (W6 m ρ c)).trans (at6_arg9 m ρ c)
theorem at7_arg11 (c : Dev nD) : W7 m ρ c (Proc.devRef .tc main_arg11) = m ((c : Thread nD τ).loc main_arg11) :=
  (hostOps2_keeps_arg11 (W6 m ρ c)).trans (at6_arg11 m ρ c)
theorem at7_v1 (c : Dev nD) : W7 m ρ c (Proc.devRef .tc main_v1) = srcIdx (m ((c : Thread nD τ).loc main_arg1)) :=
  (hostOps2_keeps_v1 (W6 m ρ c)).trans (at6_v1 m ρ c)
theorem at7_v3 (c : Dev nD) : W7 m ρ c (Proc.devRef .tc main_v3) = dstIdx (m ((c : Thread nD τ).loc main_arg1)) :=
  (hostOps2_keeps_v3 (W6 m ρ c)).trans (at6_v3 m ρ c)
theorem at7_arg10 (c : Dev nD) : W7 m ρ c (Proc.devRef .tc main_arg10) = m ((c : Thread nD τ).loc main_arg10) :=
  (hostOps2_keeps_arg10 (W6 m ρ c)).trans (at6_arg10 m ρ c)
theorem at7_v45 (c : Dev nD) : W7 m ρ c (Proc.devRef .tc main_v45) = aggregate (m ((c : Thread nD τ).loc main_arg1)) (layerK (m ((c : Thread nD τ).loc main_arg1)) true (layerK (m ((c : Thread nD τ).loc main_arg1)) true (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) := by
  refine (hostOps2_agg (W6 m ρ c)).trans ?_
  rw [at6_v1 m ρ c, at6_v3 m ρ c, at6_v35 m ρ c]
  rfl
theorem at7_v46 (c : Dev nD) : W7 m ρ c (Proc.devRef .tc main_v46) = biasRow (m ((c : Thread nD τ).loc main_arg10)) := by
  refine (hostOps2_bias (W6 m ρ c)).trans ?_
  rw [at6_arg10 m ρ c]

/-! ## Region 2's exit: the result -/

theorem at8_v47 (c : Dev nD) : W8 m ρ c (Proc.devRef .tc main_v47) = layerK (m ((c : Thread nD τ).loc main_arg1)) false (layerK (m ((c : Thread nD τ).loc main_arg1)) true (layerK (m ((c : Thread nD τ).loc main_arg1)) true (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) :=
  (W8_arr m ρ c 6).trans ((Region2.final (V7 m ρ) c).trans
    (show Region2.whole (W7 m ρ c (Proc.devRef .tc main_v45)) (W7 m ρ c (Proc.devRef .tc main_v35)) (W7 m ρ c (Proc.devRef .tc main_v11))
        (W7 m ρ c (Proc.devRef .tc main_arg9)) (W7 m ρ c (Proc.devRef .tc main_v46)) (W7 m ρ c (Proc.devRef .tc main_arg11)) = _ from by
      rw [at7_v45 m ρ c, at7_v35 m ρ c, at7_v11 m ρ c, at7_arg9 m ρ c, at7_v46 m ρ c, at7_arg11 m ρ c]
      rfl))

end Cert.KernelIdeal.Fold

end
-- ==== Proof.RefLayers.lean ====
/-
  The reference program's result is three layers of Sage.

  The reference is a line of host operations.  For each layer it gathers the rows of the current features at the
  (wrapped) source indices, adds them up at the destination indices, computes the in-degree again and clamps it below
  at one, divides the aggregate by the clamped degree put beside the rows, and takes the two products, the bias and, in
  the first two layers, the maximum with zero.  Its generated run states the result as one nested term; that term is
  the host's layer applied three times, and the host's layer is the layer of Sage with the mean formed by division.
-/
import proofs.«159616_j65171833749590_2_alg».proof.Proof.Gen.ReferenceIdeal.Run
import proofs.«159616_j65171833749590_2_alg».proof.Proof.LibSageSpellings

set_option maxRecDepth 16384

noncomputable section

namespace Cert.ReferenceIdeal.Layers

open Cert.ReferenceIdeal Cert.ReferenceIdeal.Gen Cert.ReferenceIdeal.Value
open Idealize.ShloMosaic Idealize.ShloMosaic.TcCoe Idealize.SL.Sem Idealize.ShloMosaic.StableHlo

/-- Row 0 of the edge list: the source node of every edge. -/
def srcIdx (ei : IVec S2x600000 32) : IVec S600000 32 :=
  shapeCast _ (extractStridedSlice S1x600000 ![0, 0] ei slices_S2x600000_S1x600000_0_0) shapeCasts_S1x600000_S600000

/-- Row 1 of the edge list: the destination node of every edge. -/
def dstIdx (ei : IVec S2x600000 32) : IVec S600000 32 :=
  shapeCast _ (extractStridedSlice S1x600000 ![1, 0] ei slices_S2x600000_S1x600000_1_0) shapeCasts_S1x600000_S600000

/-- Gather the rows of h at the source indices (a negative index wrapped by the number of nodes) and add them up at
    the destination indices, from zero. -/
def aggregateOf (src dst : IVec S600000 32) (h : FVec Ideal S100000x128 .f32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 100000#32))) src)))

def aggregate (ei : IVec S2x600000 32) (h : FVec Ideal S100000x128 .f32) : FVec Ideal S100000x128 .f32 :=
  aggregateOf (srcIdx ei) (dstIdx ei) h

/-- The in-degree of every node (ones added up at the destination indices), clamped below at one. -/
def clamped (ei : IVec S2x600000 32) : FVec Ideal S100000 .f32 :=
  maximumf (broadcastInDim S100000 ![] bcast_S_S100000 (id (constant S_ .f32 0x3F800000#32)))
    (Host.scatterAdd scatter_S100000_S600000x1_S600000_n_0_0_1
      (broadcastInDim S100000 ![] bcast_S_S100000 (constant S_ .f32 0x00000000#32))
      (broadcastInDim S600000x1 ![0] bcast_S600000_S600000x1_0 (dstIdx ei))
      (broadcastInDim S600000 ![] bcast_S_S600000 (constant S_ .f32 0x3F800000#32)))

/-- One layer as the host spells it, in front of the maximum. -/
def hostPre (ei : IVec S2x600000 32) (h : FVec Ideal S100000x128 .f32) (wl : FVec Ideal S128x128 .f32)
    (b : FVec Ideal S128 .f32) (wr : FVec Ideal S128x128 .f32) : FVec Ideal S100000x128 .f32 :=
  addf (addf (Host.dotGeneral dot_S100000x128_S128x128_S100000x128_1_0_0_1_n_n none
        (Host.divf (aggregate ei h)
          (broadcastInDim S100000x128 ![0, 1] bcast_S100000x1_S100000x128_0_1
            (broadcastInDim S100000x1 ![0] bcast_S100000_S100000x1_0 (clamped ei)))) wl)
      (broadcastInDim S100000x128 ![0, 1] bcast_S1x128_S100000x128_0_1 (broadcastInDim S1x128 ![1] bcast_S128_S1x128_1 b)))
    (Host.dotGeneral dot_S100000x128_S128x128_S100000x128_1_0_0_1_n_n none h wr)

/-- The maximum against a broadcast zero. -/
def hostMax (z : FVec Ideal S100000x128 .f32) : FVec Ideal S100000x128 .f32 :=
  maximumf z (broadcastInDim S100000x128 ![] bcast_S_S100000x128 (constant S_ .f32 0x00000000#32))

/-- A vector of 128 entries is a one-row array. -/
theorem bias_cast : (⟨1, ![128]⟩ : Shape).ShapeCasts ⟨2, ![1, 128]⟩ := by decide

/-- One layer as the reference computes it: the aggregate divided by the clamped degree is the mean. -/
def layerR (ei : IVec S2x600000 32) (relu : Bool) (h : FVec Ideal S100000x128 .f32) (wl : FVec Ideal S128x128 .f32)
    (b : FVec Ideal S128 .f32) (wr : FVec Ideal S128x128 .f32) : FVec Ideal S100000x128 .f32 :=
  Sage.layer relu (Sage.divRows (aggregate ei h) (clamped ei)) h wl (shapeCast ⟨2, ![1, 128]⟩ b bias_cast) wr

theorem hostPre_eq (ei : IVec S2x600000 32) (h : FVec Ideal S100000x128 .f32) (wl : FVec Ideal S128x128 .f32)
    (b : FVec Ideal S128 .f32) (wr : FVec Ideal S128x128 .f32) : hostPre ei h wl b wr = layerR ei false h wl b wr := by
  unfold hostPre layerR
  rw [Sage.Spell.divf_col_eq_divRows]
  exact Sage.Spell.host_core dot_S100000x128_S128x128_S100000x128_1_0_0_1_n_n rfl rfl (fun _ _ => rfl) (fun _ _ => rfl) (fun _ _ => rfl) (fun _ _ => rfl) _ _ _ _ _ _ _ bias_cast

theorem hostMax_eq (ei : IVec S2x600000 32) (h : FVec Ideal S100000x128 .f32) (wl : FVec Ideal S128x128 .f32)
    (b : FVec Ideal S128 .f32) (wr : FVec Ideal S128x128 .f32) : hostMax (hostPre ei h wl b wr) = layerR ei true h wl b wr := by
  unfold hostMax hostPre layerR
  rw [Sage.Spell.divf_col_eq_divRows]
  exact Sage.Spell.host_relu dot_S100000x128_S128x128_S100000x128_1_0_0_1_n_n rfl rfl (fun _ _ => rfl) (fun _ _ => rfl) (fun _ _ => rfl) (fun _ _ => rfl) _ _ _ _ _ _ _ _ bias_cast

variable (m : (ℓ : Loc nD τ sig) → Buf (Elt Ideal) ℓ)

/-- The generated run's result term is the host's layer, three times. -/
theorem result_spelt (c : Dev nD) : res_main_v77 m c = hostPre (m ((c.tc : Thread nD τ).loc main_arg1)) (hostMax (hostPre (m ((c.tc : Thread nD τ).loc main_arg1)) (hostMax (hostPre (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)))) (m ((c.tc : Thread nD τ).loc main_arg6)) (m ((c.tc : Thread nD τ).loc main_arg7)) (m ((c.tc : Thread nD τ).loc main_arg8)))) (m ((c.tc : Thread nD τ).loc main_arg9)) (m ((c.tc : Thread nD τ).loc main_arg10)) (m ((c.tc : Thread nD τ).loc main_arg11)) := by
  unfold res_main_v77 hostPre hostMax aggregate aggregateOf clamped srcIdx dstIdx
  rfl

/-- The reference's result is three layers. -/
theorem result_eq (c : Dev nD) : res_main_v77 m c = layerR (m ((c.tc : Thread nD τ).loc main_arg1)) false (layerR (m ((c.tc : Thread nD τ).loc main_arg1)) true (layerR (m ((c.tc : Thread nD τ).loc main_arg1)) true (m ((c.tc : Thread nD τ).loc main_arg0)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) := by
  rw [result_spelt, hostMax_eq, hostMax_eq, hostPre_eq]

end Cert.ReferenceIdeal.Layers

end
-- ==== Proof.lean ====
/-
  The claim: a three-layer mean-aggregation graph network computed by three kernel regions among host operations
  equals its plain reference on the extended reals.

  Each layer takes the current node features h, adds up the rows of h at the source nodes of the edges into the
  destination nodes (the aggregate, a host gather and scatter-add in BOTH programs, the same operations on the same
  index vectors), divides by the in-degree clamped below at one (the mean), and returns
  mean · Wl + b + h · Wr, with the maximum with zero after the first two layers.

  The kernel program computes the reciprocal of the clamped degree once on the host and, inside each region,
  multiplies the aggregate's rows by it; the reference divides the aggregate by the clamped degree in every layer.
  On the extended reals x * (1 / d) = x / d whenever d is not zero, and the clamped degree is a maximum with one,
  hence never zero: the two means are one array (Sage.Mean.mean_eq), with no appeal to finiteness of the inputs.
  The matrix unit's products onto zero and the host's dot_generals are the same sums, the roundings in front of the
  matrix unit are the identity, and both programs add the bias between the two products (LibSageSpellings).

  A region's 20 bands of 5000 rows tile the 100000 nodes and the layer is row-wise, so each region leaves its output
  array at the layer of the arrays it found (Region0 / Region1 / Region2); reading the host stretches back between
  the regions gives the kernel program's result as the threefold layer of the arguments (KernelFold), stated on its
  run with every buffer named (KernelRun).  The reference's generated run gives its result as the host's layer three
  times (RefLayers).  The two threefold layers agree layer by layer, the inner layers being the same arrays.

  The three frames are the generated ones (the reference's is its run with the result dropped); no operation was
  rewritten when the kernel was idealized, so "preserves" has nothing to state.
-/
import proofs.«159616_j65171833749590_2_alg».proof.Defs
import proofs.«159616_j65171833749590_2_alg».proof.Proof.Gen.Kernel
import proofs.«159616_j65171833749590_2_alg».proof.Proof.Gen.Kernel.Frame
import proofs.«159616_j65171833749590_2_alg».proof.Proof.Gen.KernelIdeal
import proofs.«159616_j65171833749590_2_alg».proof.Proof.Gen.KernelIdeal.Frame
import proofs.«159616_j65171833749590_2_alg».proof.Proof.Gen.ReferenceIdeal
import proofs.«159616_j65171833749590_2_alg».proof.Proof.Gen.ReferenceIdeal.Run
import proofs.«159616_j65171833749590_2_alg».proof.Proof.Gen.Pre_finite_inputs
import proofs.«159616_j65171833749590_2_alg».proof.Proof.LibSageMean
import proofs.«159616_j65171833749590_2_alg».proof.Proof.KernelRun
import proofs.«159616_j65171833749590_2_alg».proof.Proof.KernelFold
import proofs.«159616_j65171833749590_2_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

/-- One layer as the reference computes it and as the kernel program computes it is one function of the same
    arrays: the aggregate and the clamped degree are the same host operations on the same index vectors, and the
    aggregate divided by the clamped degree is the aggregate scaled by its reciprocal. -/
theorem layer_agree (ei : (⟨Cert.KernelIdeal.S2x600000, .i32⟩ : BufTy).Contents (Elt Ideal)) (relu : Bool)
    (h : (⟨Cert.KernelIdeal.S100000x128, .f32⟩ : BufTy).Contents (Elt Ideal))
    (wl : (⟨Cert.KernelIdeal.S128x128, .f32⟩ : BufTy).Contents (Elt Ideal))
    (b : (⟨Cert.KernelIdeal.S128, .f32⟩ : BufTy).Contents (Elt Ideal))
    (wr : (⟨Cert.KernelIdeal.S128x128, .f32⟩ : BufTy).Contents (Elt Ideal)) :
    Cert.ReferenceIdeal.Layers.layerR ei relu h wl b wr = Cert.KernelIdeal.Fold.layerK ei relu h wl b wr := by
  unfold Cert.ReferenceIdeal.Layers.layerR Cert.KernelIdeal.Fold.layerK Cert.KernelIdeal.Fold.recip
    Cert.KernelIdeal.Fold.clamped
  rw [Sage.Mean.mean_eq]
  rfl

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, the kernel program's result at the threefold layer of its arguments and the reference's at
    the threefold layer of arguments that agree with them: equal, layer by layer. -/
theorem algebraic : Cert.algebraic_KernelIdeal_ReferenceIdeal := by
  intro m ρ m' ρ' _ hagree
  refine ⟨_, Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.KernelIdeal.Fold.at8_v47 m ρ c, Cert.ReferenceIdeal.Layers.result_eq m' c,
    a0, a1, a3, a4, a5, a6, a7, a8, a9, a10, a11, layer_agree, layer_agree, layer_agree]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
